-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8 : Shape := ⟨1, ![8]⟩
abbrev S8x2048x8192 : Shape := ⟨3, ![8, 2048, 8192]⟩
abbrev S8x8192 : Shape := ⟨2, ![8, 8192]⟩
abbrev S8x8192x2048 : Shape := ⟨3, ![8, 8192, 2048]⟩
abbrev S8x2048 : Shape := ⟨2, ![8, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x8192 : S_.BroadcastsInDim S8x8192 (![] : Fin 0 → Fin S8x8192.rank)
  reducesTo_S8x8192_S_d0_1 : S8x8192.ReducesTo [0, 1] S_
  bcast_S_S8x8192x2048 : S_.BroadcastsInDim S8x8192x2048 (![] : Fin 0 → Fin S8x8192x2048.rank)
  reducesTo_S8x8192x2048_S_d0_1_2 : S8x8192x2048.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg5 : FVec F S8x2048 .f32) (main_v13 : IVec S_ 1) (main_v16 : IVec S8x8192x2048 1) : IVec S_ 1 :=
  let main_c_5 : IVec S_ 1 := constantI S_ 1 1#1
  let main_v17 : IVec S_ 1 := (fun x v => Host.reduce IntOp.andi x v reducesTo_S8x8192x2048_S_d0_1_2 h_S_) main_v16 main_c_5
  let main_v18 : IVec S_ 1 := andi main_v13 main_v17
  let main_v19 : FVec F S8x2048 .f32 := Host.absf main_arg5
  let main_cst_6 : FVec F S_ .f32 := constant S_ .f32 0x7F800000#32
  let main_v20 : FVec F S8x2048 .f32 := broadcastInDim S8x2048 ![] bcast_S_S8x2048 main_cst_6
  let main_v21 : IVec S8x2048 1 := cmpf .olt main_v19 main_v20
  let main_c_7 : IVec S_ 1 := constantI S_ 1 1#1
  let main_v22 : IVec S_ 1 := (fun x v => Host.reduce IntOp.andi x v reducesTo_S8x2048_S_d0_1 h_S_) main_v21 main_c_7
  let main_v23 : IVec S_ 1 := andi main_v18 main_v22
  main_v23

def fn {F : FTy → Type} [FloatOps F] (main_arg0 : FVec F S16384x2048 .f32) (main_arg1 : IVec S8 32) (main_arg2 : FVec F S8x2048x8192 .f32) (main_arg3 : FVec F S8x8192 .f32) (main_arg4 : FVec F S8x8192x2048 .f32) (main_arg5 : FVec F S8x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x8192 .f32 := Host.absf main_arg2
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x8192 .f32 := Host.absf main_arg3
  let main_cst_2 : FVec F S_ .f32 := constant S_ .f32 0x7F800000#32
  let main_v10 : FVec F S8x8192 .f32 := broadcastInDim S8x8192 ![] bcast_S_S8x8192 main_cst_2
  let main_v11 : IVec S8x8192 1 := cmpf .olt main_v9 main_v10
  let main_c_3 : IVec S_ 1 := constantI S_ 1 1#1
  let main_v12 : IVec S_ 1 := (fun x v => Host.reduce IntOp.andi x v reducesTo_S8x8192_S_d0_1 h_S_) main_v11 main_c_3
  let main_v13 : IVec S_ 1 := andi main_v8 main_v12
  let main_v14 : FVec F S8x8192x2048 .f32 := Host.absf main_arg4
  let main_cst_4 : FVec F S_ .f32 := constant S_ .f32 0x7F800000#32
  let main_v15 : FVec F S8x8192x2048 .f32 := broadcastInDim S8x8192x2048 ![] bcast_S_S8x8192x2048 main_cst_4
  let main_v16 : IVec S8x8192x2048 1 := cmpf .olt main_v14 main_v15
  fn_part1 (F := F) main_arg5 main_v13 main_v16
-- ==== Kernel.lean ====
abbrev S16384x2048 : Shape := ⟨2, ![16384, 2048]⟩
abbrev S8 : Shape := ⟨1, ![8]⟩
abbrev S8x2048x8192 : Shape := ⟨3, ![8, 2048, 8192]⟩
abbrev S8x8192 : Shape := ⟨2, ![8, 8192]⟩
abbrev S8x8192x2048 : Shape := ⟨3, ![8, 8192, 2048]⟩
abbrev S8x2048 : Shape := ⟨2, ![8, 2048]⟩
abbrev S8x2048x2048 : Shape := ⟨3, ![8, 2048, 2048]⟩
abbrev S8x1x8192 : Shape := ⟨3, ![8, 1, 8192]⟩
abbrev S8x1x2048 : Shape := ⟨3, ![8, 1, 2048]⟩
abbrev S1x1024x2048 : Shape := ⟨3, ![1, 1024, 2048]⟩
abbrev S1x2048x256 : Shape := ⟨3, ![1, 2048, 256]⟩
abbrev S1x1x256 : Shape := ⟨3, ![1, 1, 256]⟩
abbrev S1x256x2048 : Shape := ⟨3, ![1, 256, 2048]⟩
abbrev S1x1x2048 : Shape := ⟨3, ![1, 1, 2048]⟩
abbrev S1024x2048 : Shape := ⟨2, ![1024, 2048]⟩
abbrev S2048x256 : Shape := ⟨2, ![2048, 256]⟩
abbrev S1024x256 : Shape := ⟨2, ![1024, 256]⟩
abbrev S256 : Shape := ⟨1, ![256]⟩
abbrev S1x256 : Shape := ⟨2, ![1, 256]⟩
abbrev S256x2048 : Shape := ⟨2, ![256, 2048]⟩
abbrev S2048 : Shape := ⟨1, ![2048]⟩
abbrev S1x2048 : Shape := ⟨2, ![1, 2048]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S8x2048x8192, .f32⟩
  | .hbm, ⟨3, _⟩ => ⟨S8x8192, .f32⟩
  | .hbm, ⟨4, _⟩ => ⟨S8x8192x2048, .f32⟩
  | .hbm, ⟨5, _⟩ => ⟨S8x2048, .f32⟩
  | .hbm, ⟨6, _⟩ => ⟨S8x2048x2048, .f32⟩
  | .hbm, ⟨7, _⟩ => ⟨S8x1x8192, .f32⟩
  | .hbm, ⟨8, _⟩ => ⟨S8x1x2048, .f32⟩
  | .hbm, ⟨9, _⟩ => ⟨S8x2048x2048, .f32⟩
  | .hbm, ⟨10, _⟩ => ⟨S16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x1x256, .f32⟩
  | .local _ .vmem, ⟨5, _⟩ => ⟨S1x1x256, .f32⟩
  | .local _ .vmem, ⟨6, _⟩ => ⟨S1x256x2048, .f32⟩
  | .local _ .vmem, ⟨7, _⟩ => ⟨S1x256x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1024x2048, .f32⟩
  | .local _ .vmem, ⟨11, _⟩ => ⟨S1x1024x2048, .f32⟩
  | .local _ .vmem, ⟨12, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 32], ![false, false, false]⟩

def k0_cond2 (i : grid0.Coords) : BitVec 1 :=
  let arg2 : BitVec 32 := BitVec.ofNat 32 (i 2).val
  let c31_i32 : BitVec 32 := 31#32
  let v38 : BitVec 1 := Scalar.cmpi .eq arg2 c31_i32
  let v39 : BitVec 32 := Scalar.extui v38
  let c0_i32_21 : BitVec 32 := 0#32
  let v40 : BitVec 1 := Scalar.cmpi .ne v39 c0_i32_21
  v40

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S16384x2048_S8x2048x2048 : S16384x2048.ShapeCasts S8x2048x2048
  shapeCasts_S8x8192_S8x1x8192 : S8x8192.ShapeCasts S8x1x8192
  shapeCasts_S8x2048_S8x1x2048 : S8x2048.ShapeCasts S8x1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x256 : S256.ShapeCasts S1x256
  broadcasts_S1x256_S1024x256 : S1x256.Broadcasts S1024x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S1024x2048 : S1x2048.Broadcasts S1024x2048
  shapeCasts_S1024x2048_S1x1024x2048 : S1024x2048.ShapeCasts S1x1024x2048
  shapeCasts_S8x2048x2048_S16384x2048 : S8x2048x2048.ShapeCasts S16384x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x2048x2048.size a
  hwx0_0 : ∀ i : grid0.Coords, EltTy.bits .f32 = 32 ∨ (Rect.block (s := S8x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x8192.size a
  hwx0_1 : ∀ i : grid0.Coords, EltTy.bits .f32 = 32 ∨ (Rect.block (s := S8x2048x8192) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x8192.size a
  hwx0_2 : ∀ i : grid0.Coords, EltTy.bits .f32 = 32 ∨ (Rect.block (s := S8x1x8192) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x8192x2048.size a
  hwx0_3 : ∀ i : grid0.Coords, EltTy.bits .f32 = 32 ∨ (Rect.block (s := S8x8192x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S8x2048x2048.size a
  hwx0_5 : ∀ i : grid0.Coords, EltTy.bits .f32 = 32 ∨ (Rect.block (s := S8x2048x2048) S1x1024x2048.size (cc0_transform_5 i) (hinb0_5 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8 : Shape := ⟨1, ![8]⟩
abbrev S8x2048x8192 : Shape := ⟨3, ![8, 2048, 8192]⟩
abbrev S8x8192 : Shape := ⟨2, ![8, 8192]⟩
abbrev S8x8192x2048 : Shape := ⟨3, ![8, 8192, 2048]⟩
abbrev S8x2048 : Shape := ⟨2, ![8, 2048]⟩
abbrev S8x2048x2048 : Shape := ⟨3, ![8, 2048, 2048]⟩
abbrev S8x1x8192 : Shape := ⟨3, ![8, 1, 8192]⟩
abbrev S_ : Shape := ⟨0, ![]⟩
abbrev S8x1x2048 : Shape := ⟨3, ![8, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S8x2048x8192, .f32⟩
  | .hbm, ⟨3, _⟩ => ⟨S8x8192, .f32⟩
  | .hbm, ⟨4, _⟩ => ⟨S8x8192x2048, .f32⟩
  | .hbm, ⟨5, _⟩ => ⟨S8x2048, .f32⟩
  | .hbm, ⟨6, _⟩ => ⟨S8x2048x2048, .f32⟩
  | .hbm, ⟨7, _⟩ => ⟨S8x2048x8192, .f32⟩
  | .hbm, ⟨8, _⟩ => ⟨S8x1x8192, .f32⟩
  | .hbm, ⟨9, _⟩ => ⟨S8x2048x8192, .f32⟩
  | .hbm, ⟨10, _⟩ => ⟨S8x2048x8192, .f32⟩
  | .hbm, ⟨11, _⟩ => ⟨S8x2048x8192, .f32⟩
  | .hbm, ⟨12, _⟩ => ⟨S8x2048x8192, .f32⟩
  | .hbm, ⟨13, _⟩ => ⟨S_, .f32⟩
  | .hbm, ⟨14, _⟩ => ⟨S8x2048x8192, .f32⟩
  | .hbm, ⟨15, _⟩ => ⟨S8x2048x8192, .f32⟩
  | .hbm, ⟨16, _⟩ => ⟨S8x2048x8192, .f32⟩
  | .hbm, ⟨17, _⟩ => ⟨S_, .f32⟩
  | .hbm, ⟨18, _⟩ => ⟨S8x2048x8192, .f32⟩
  | .hbm, ⟨19, _⟩ => ⟨S8x2048x8192, .f32⟩
  | .hbm, ⟨20, _⟩ => ⟨S8x2048x8192, .f32⟩
  | .hbm, ⟨21, _⟩ => ⟨S_, .f32⟩
  | .hbm, ⟨22, _⟩ => ⟨S8x2048x8192, .f32⟩
  | .hbm, ⟨23, _⟩ => ⟨S8x2048x8192, .f32⟩
  | .hbm, ⟨24, _⟩ => ⟨S_, .f32⟩
  | .hbm, ⟨25, _⟩ => ⟨S8x2048x8192, .f32⟩
  | .hbm, ⟨26, _⟩ => ⟨S8x2048x8192, .f32⟩
  | .hbm, ⟨27, _⟩ => ⟨S8x2048x8192, .f32⟩
  | .hbm, ⟨28, _⟩ => ⟨S8x2048x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S8x8192_S8x1x8192_0_2 : S8x8192.BroadcastsInDim S8x1x8192 (![0, 2] : Fin 2 → Fin S8x1x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  shapeCasts_S8x2048x2048_S16384x2048 : S8x2048x2048.ShapeCasts S16384x2048
  dot_S8x2048x2048_S8x2048x8192_S8x2048x8192_2_1_1_2_0_0_wf : DotDims.WF S8x2048x2048 S8x2048x8192 S8x2048x8192 [2] [1] [1] [2] [0] [0]
  dot_S8x2048x8192_S8x8192x2048_S8x2048x2048_2_1_1_2_0_0_wf : DotDims.WF S8x2048x8192 S8x8192x2048 S8x2048x2048 [2] [1] [1] [2] [0] [0]

variable [Facts₀]

def dot_S8x2048x2048_S8x2048x8192_S8x2048x8192_2_1_1_2_0_0 : DotDims S8x2048x2048 S8x2048x8192 S8x2048x8192 where
  lhsContracting := [2]
  rhsContracting := [1]
  lhsNonContracting := [1]
  rhsNonContracting := [2]
  lhsBatch := [0]
  rhsBatch := [0]
  wf := dot_S8x2048x2048_S8x2048x8192_S8x2048x8192_2_1_1_2_0_0_wf
def dot_S8x2048x8192_S8x8192x2048_S8x2048x2048_2_1_1_2_0_0 : DotDims S8x2048x8192 S8x8192x2048 S8x2048x2048 where
  lhsContracting := [2]
  rhsContracting := [1]
  lhsNonContracting := [1]
  rhsNonContracting := [2]
  lhsBatch := [0]
  rhsBatch := [0]
  wf := dot_S8x2048x8192_S8x8192x2048_S8x2048x2048_2_1_1_2_0_0_wf

class Facts : Prop extends Facts₀ where

variable [Facts]
-- ==== Proof.Pieces.lean ====
/-
  What one run of the kernel body leaves behind, case by case, as plain terms of its loaded blocks.

  The body runs at a grid point (e, ci, fi): expert e, token tile ci, hidden tile fi. A carried accumulator
  (one [1024, 2048] block) is reset to zero where fi = 0, receives the tile's product
  gelu(x * w1 + b1) * w2 at every point, and where fi = 31 is copied, plus the second bias row, into the output block.
  Each lemma reads the stores the generated run found (the last store to a buffer covers it) and the loads
  that read a buffer whole.
-/
import proofs.«150474_j75711683494339_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a group (fi = 0): the accumulator is reset to the zero block, read back, and left holding the
    zero block plus this tile's product. -/
theorem scratch_A (c : Dev nD) (i : grid0.Coords) (arg3 : Memref sig .tc .vmem S1x1024x2048 .f32) (harg3 : arg3.IsWhole) (arg4 : Memref sig .tc .vmem S1x2048x256 .f32) (harg4 : arg4.IsWhole) (arg5 : Memref sig .tc .vmem S1x1x256 .f32) (harg5 : arg5.IsWhole) (arg6 : Memref sig .tc .vmem S1x256x2048 .f32) (harg6 : arg6.IsWhole) (arg7 : Memref sig .tc .vmem S1x1x2048 .f32) (harg7 : arg7.IsWhole) (arg8 : Memref sig .tc .vmem S1x1024x2048 .f32) (harg8 : arg8.IsWhole) (arg9 : Memref sig .tc .vmem S1024x2048 .f32) (harg9 : arg9.IsWhole) (hc0 : cond0_0 i) (hc1 : ¬cond0_1 i)
    (x0 : Vec F S1x1024x2048 .f32) (x1 : Vec F S1x2048x256 .f32) (x2 : Vec F S1x1x256 .f32) (x3 : Vec F S1x256x2048 .f32) (x4 : Vec F S1x1x2048 .f32) :
    sout0_A_0 c i arg3 harg3 arg4 harg4 arg5 harg5 arg6 harg6 arg7 harg7 arg8 harg8 arg9 harg9 hc0 hc1 x0 x1 x2 x3 x4 = k0_pay1 (k0_pay3 (F := F)) (k0_pay4 x0 x1 x2 x3) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x2048) hz2, View.readCov_unit_zero (S := S1024x2048) _ hz2]
  simp only [View.readAt_eq_ld, harg3.read_unread, harg4.read_unread, harg5.read_unread, harg6.read_unread, harg7.read_unread,
    harg9.read_unread, View.ld_unit_zero (S := S1024x2048) hz2, View.ld_unit_zero (S := S1x1024x2048) hz3,
    View.ld_unit_zero (S := S1x2048x256) hz3, View.ld_unit_zero (S := S1x1x256) hz3, View.ld_unit_zero (S := S1x256x2048) hz3,
    View.ld_unit_zero (S := S1x1x2048) hz3]

/-- A middle point (0 < fi < 31): the accumulator, found holding `xs0`, is left holding `xs0` plus this tile's
    product. -/
theorem scratch_B (c : Dev nD) (i : grid0.Coords) (arg3 : Memref sig .tc .vmem S1x1024x2048 .f32) (harg3 : arg3.IsWhole) (arg4 : Memref sig .tc .vmem S1x2048x256 .f32) (harg4 : arg4.IsWhole) (arg5 : Memref sig .tc .vmem S1x1x256 .f32) (harg5 : arg5.IsWhole) (arg6 : Memref sig .tc .vmem S1x256x2048 .f32) (harg6 : arg6.IsWhole) (arg7 : Memref sig .tc .vmem S1x1x2048 .f32) (harg7 : arg7.IsWhole) (arg8 : Memref sig .tc .vmem S1x1024x2048 .f32) (harg8 : arg8.IsWhole) (arg9 : Memref sig .tc .vmem S1024x2048 .f32) (harg9 : arg9.IsWhole) (hc0 : ¬cond0_0 i) (hc1 : ¬cond0_1 i)
    (x0 : Vec F S1x1024x2048 .f32) (x1 : Vec F S1x2048x256 .f32) (x2 : Vec F S1x1x256 .f32) (x3 : Vec F S1x256x2048 .f32) (x4 : Vec F S1x1x2048 .f32) (xs0 : Vec F S1024x2048 .f32) :
    sout0_B_0 c i arg3 harg3 arg4 harg4 arg5 harg5 arg6 harg6 arg7 harg7 arg8 harg8 arg9 harg9 hc0 hc1 x0 x1 x2 x3 x4 xs0 = k0_pay1 xs0 (k0_pay4 x0 x1 x2 x3) := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz2]
  simp only [View.readAt_eq_ld, harg3.read_unread, harg4.read_unread, harg5.read_unread, harg6.read_unread, harg7.read_unread,
    harg9.read_unread, View.ld_unit_zero (S := S1024x2048) hz2, View.ld_unit_zero (S := S1x1024x2048) hz3,
    View.ld_unit_zero (S := S1x2048x256) hz3, View.ld_unit_zero (S := S1x1x256) hz3, View.ld_unit_zero (S := S1x256x2048) hz3,
    View.ld_unit_zero (S := S1x1x2048) hz3]

/-- The last point of a group (fi = 31): the accumulator, found holding `xs0`, is left holding `xs0` plus this tile's
    product, exactly as at a middle point. -/
theorem scratch_C (c : Dev nD) (i : grid0.Coords) (arg3 : Memref sig .tc .vmem S1x1024x2048 .f32) (harg3 : arg3.IsWhole) (arg4 : Memref sig .tc .vmem S1x2048x256 .f32) (harg4 : arg4.IsWhole) (arg5 : Memref sig .tc .vmem S1x1x256 .f32) (harg5 : arg5.IsWhole) (arg6 : Memref sig .tc .vmem S1x256x2048 .f32) (harg6 : arg6.IsWhole) (arg7 : Memref sig .tc .vmem S1x1x2048 .f32) (harg7 : arg7.IsWhole) (arg8 : Memref sig .tc .vmem S1x1024x2048 .f32) (harg8 : arg8.IsWhole) (arg9 : Memref sig .tc .vmem S1024x2048 .f32) (harg9 : arg9.IsWhole) (hc0 : ¬cond0_0 i) (hc1 : cond0_1 i)
    (x0 : Vec F S1x1024x2048 .f32) (x1 : Vec F S1x2048x256 .f32) (x2 : Vec F S1x1x256 .f32) (x3 : Vec F S1x256x2048 .f32) (x4 : Vec F S1x1x2048 .f32) (xs0 : Vec F S1024x2048 .f32) :
    sout0_C_0 c i arg3 harg3 arg4 harg4 arg5 harg5 arg6 harg6 arg7 harg7 arg8 harg8 arg9 harg9 hc0 hc1 x0 x1 x2 x3 x4 xs0 = k0_pay1 xs0 (k0_pay4 x0 x1 x2 x3) := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz2]
  simp only [View.readAt_eq_ld, harg3.read_unread, harg4.read_unread, harg5.read_unread, harg6.read_unread, harg7.read_unread,
    harg9.read_unread, View.ld_unit_zero (S := S1024x2048) hz2, View.ld_unit_zero (S := S1x1024x2048) hz3,
    View.ld_unit_zero (S := S1x2048x256) hz3, View.ld_unit_zero (S := S1x1x256) hz3, View.ld_unit_zero (S := S1x256x2048) hz3,
    View.ld_unit_zero (S := S1x1x2048) hz3]

/-- At the last point of a group the output block is the accumulator that point leaves, read back, plus the second
    bias row. -/
theorem out_C (c : Dev nD) (i : grid0.Coords) (arg3 : Memref sig .tc .vmem S1x1024x2048 .f32) (harg3 : arg3.IsWhole) (arg4 : Memref sig .tc .vmem S1x2048x256 .f32) (harg4 : arg4.IsWhole) (arg5 : Memref sig .tc .vmem S1x1x256 .f32) (harg5 : arg5.IsWhole) (arg6 : Memref sig .tc .vmem S1x256x2048 .f32) (harg6 : arg6.IsWhole) (arg7 : Memref sig .tc .vmem S1x1x2048 .f32) (harg7 : arg7.IsWhole) (arg8 : Memref sig .tc .vmem S1x1024x2048 .f32) (harg8 : arg8.IsWhole) (arg9 : Memref sig .tc .vmem S1024x2048 .f32) (harg9 : arg9.IsWhole) (hc0 : ¬cond0_0 i) (hc1 : cond0_1 i)
    (x0 : Vec F S1x1024x2048 .f32) (x1 : Vec F S1x2048x256 .f32) (x2 : Vec F S1x1x256 .f32) (x3 : Vec F S1x256x2048 .f32) (x4 : Vec F S1x1x2048 .f32) (xs0 : Vec F S1024x2048 .f32) :
    out0_C_5 c i arg3 harg3 arg4 harg4 arg5 harg5 arg6 harg6 arg7 harg7 arg8 harg8 arg9 harg9 hc0 hc1 x0 x1 x2 x3 x4 xs0 = k0_pay2 (k0_pay1 xs0 (k0_pay4 x0 x1 x2 x3)) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero hz3, View.readCov_unit_zero (S := S1024x2048) _ hz2]
  simp only [View.readAt_eq_ld, harg3.read_unread, harg4.read_unread, harg5.read_unread, harg6.read_unread, harg7.read_unread,
    harg9.read_unread, View.ld_unit_zero (S := S1024x2048) hz2, View.ld_unit_zero (S := S1x1024x2048) hz3,
    View.ld_unit_zero (S := S1x2048x256) hz3, View.ld_unit_zero (S := S1x1x256) hz3, View.ld_unit_zero (S := S1x256x2048) hz3,
    View.ld_unit_zero (S := S1x1x2048) hz3]

end Cert.KernelIdeal.Pieces

end
-- ==== Proof.Spec.lean ====
/-
  The mathematics both programs compute, stated once over the extended reals.

  Tokens are grouped by expert: entry (e, c, k) of the input is token c of expert e. For each expert the
  result is a two-layer feed-forward map with a tanh-form GELU between the layers:

      hidden(e, c, f) = (sum over k of X(e, c, k) * W1(e, k, f)) + B1(e, f)
      out(e, c, h)    = (sum over f of gelu(hidden(e, c, f)) * W2(e, f, h)) + B2(e, h)

  The two bias arrays carry a unit middle axis, the form in which both programs hold them.
  The sum over the 8192 values of f is also a sum over 32 consecutive runs of 256, in any order and grouping:
  addition of extended reals is commutative and associative, so no finiteness is needed for it.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- Extended-real arrays of rank three with literal extents. -/
abbrev Arr3 (a b c : ℕ) : Type := (⟨3, ![a, b, c]⟩ : Shape).Idx → EReal

/-- The tanh-form GELU, x * (1/2 * (1 + tanh (c2 * (x + c1 * (x * (x * x)))))), its four constants the exact
    binary values of the single-precision words both programs print. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The first layer before the activation, for token c of expert e at hidden unit f. -/
def hid (X : Arr3 8 2048 2048) (W1 : Arr3 8 2048 8192) (B1 : Arr3 8 1 8192) (e : Fin 8) (c : Fin 2048) (f : Fin 8192) : EReal :=
  (∑ k : Fin 2048, X (ix3 e c k) * W1 (ix3 e k f)) + B1 (ix3 e (0 : Fin 1) f)

/-- One term of the second layer's sum: the activated hidden unit f times its weight towards output h. -/
def term (X : Arr3 8 2048 2048) (W1 : Arr3 8 2048 8192) (B1 : Arr3 8 1 8192) (W2 : Arr3 8 8192 2048)
    (e : Fin 8) (c : Fin 2048) (h : Fin 2048) (f : Fin 8192) : EReal :=
  gelu (hid X W1 B1 e c f) * W2 (ix3 e f h)

/-- The same term at a natural number, zero past the last hidden unit. -/
def termN (X : Arr3 8 2048 2048) (W1 : Arr3 8 2048 8192) (B1 : Arr3 8 1 8192) (W2 : Arr3 8 8192 2048)
    (e : Fin 8) (c : Fin 2048) (h : Fin 2048) (n : ℕ) : EReal :=
  if hn : n < 8192 then term X W1 B1 W2 e c h ⟨n, hn⟩ else 0

theorem termN_of_lt (X : Arr3 8 2048 2048) (W1 : Arr3 8 2048 8192) (B1 : Arr3 8 1 8192) (W2 : Arr3 8 8192 2048)
    (e : Fin 8) (c : Fin 2048) (h : Fin 2048) (n : ℕ) (hn : n < 8192) :
    termN X W1 B1 W2 e c h n = term X W1 B1 W2 e c h ⟨n, hn⟩ := dif_pos hn

/-- The result: the second layer of every token, as one function of the five arrays. -/
def out3 (X : Arr3 8 2048 2048) (W1 : Arr3 8 2048 8192) (B1 : Arr3 8 1 8192) (W2 : Arr3 8 8192 2048) (B2 : Arr3 8 1 2048) :
    Arr3 8 2048 2048 :=
  fun i => (∑ f : Fin 8192, term X W1 B1 W2 (i 0) (i 1) (i 2) f) + B2 (ix3 (i 0) (0 : Fin 1) (i 2))

/-- A sum over the first J * K naturals, taken as J consecutive runs of K. -/
theorem sum_range_runs {M : Type*} [AddCommMonoid M] (K : ℕ) (a : ℕ → M) :
    ∀ J : ℕ, ∑ n ∈ Finset.range (J * K), a n = ∑ s ∈ Finset.range J, ∑ f ∈ Finset.range K, a (K * s + f)
  | 0 => by simp
  | J + 1 => by
    rw [Nat.succ_mul, Finset.sum_range_add, sum_range_runs K a J, Finset.sum_range_succ, Nat.mul_comm J K]

/-- The second layer's sum over all 8192 hidden units is the sum, over 32 runs of 256 consecutive units, of each
    run's sum. -/
theorem sum_term_runs (X : Arr3 8 2048 2048) (W1 : Arr3 8 2048 8192) (B1 : Arr3 8 1 8192) (W2 : Arr3 8 8192 2048)
    (e : Fin 8) (c : Fin 2048) (h : Fin 2048) :
    ∑ f : Fin 8192, term X W1 B1 W2 e c h f
      = ∑ s ∈ Finset.range 32, ∑ f' : Fin 256, termN X W1 B1 W2 e c h (256 * s + f'.val) := by
  have e1 : ∑ f : Fin 8192, term X W1 B1 W2 e c h f = ∑ f : Fin 8192, termN X W1 B1 W2 e c h f.val :=
    Finset.sum_congr rfl fun f _ => (termN_of_lt X W1 B1 W2 e c h f.val f.isLt).symm
  rw [e1, Fin.sum_univ_eq_sum_range (termN X W1 B1 W2 e c h) 8192,
    show (8192 : ℕ) = 32 * 256 from rfl, sum_range_runs 256 (termN X W1 B1 W2 e c h) 32]
  exact Finset.sum_congr rfl fun s _ =>
    (Fin.sum_univ_eq_sum_range (fun f => termN X W1 B1 W2 e c h (256 * s + f)) 256).symm

end Cert.Spec

end
-- ==== Proof.Payload.lean ====
/-
  The kernel body's arithmetic read at an entry, over the extended reals.

  One run of the body, at a point (e, ci, fi), takes a [1024, 2048] block `x` of tokens, a [2048, 256] tile `w1` and a
  [256] tile `b1` of the first layer, and a [256, 2048] tile `w2` of the second (each held with a unit leading axis). Its
  product at (r, h) is the sum over the tile's 256 hidden units f of gelu ((sum over k of x(r, k) * w1(k, f)) + b1(f)) * w2(f, h):
  a change of float format is the identity here, and a matrix product into a zero accumulator is the plain sum over the
  contracted index.
-/
import proofs.«150474_j75711683494339_2_alg».proof.Proof.Gen.KernelIdeal.Skeleton
import proofs.«150474_j75711683494339_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx
open Cert.KernelIdeal Cert.KernelIdeal.Gen Cert.Spec

/-! ## The two matrix products, into a zero accumulator, at an entry -/

/-- The operand indices of the first product at an output index and a contraction index, coordinate by coordinate. -/
theorem d1_l0 (j : S1024x256.Idx) (q : dot_S1024x2048_S2048x256_S1024x256_1_0_0_1_n_n.contr.Idx) : (dot_S1024x2048_S2048x256_S1024x256_1_0_0_1_n_n.lhsIdx j q 0).val = (j 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl
theorem d1_l1 (j : S1024x256.Idx) (q : dot_S1024x2048_S2048x256_S1024x256_1_0_0_1_n_n.contr.Idx) : (dot_S1024x2048_S2048x256_S1024x256_1_0_0_1_n_n.lhsIdx j q 1).val = (q ⟨0, by decide⟩).val :=
  dot_S1024x2048_S2048x256_S1024x256_1_0_0_1_n_n.lhsIdx_val_of_single rfl j q
theorem d1_r0 (j : S1024x256.Idx) (q : dot_S1024x2048_S2048x256_S1024x256_1_0_0_1_n_n.contr.Idx) : (dot_S1024x2048_S2048x256_S1024x256_1_0_0_1_n_n.rhsIdx j q 0).val = (q ⟨0, by decide⟩).val :=
  dot_S1024x2048_S2048x256_S1024x256_1_0_0_1_n_n.rhsIdx_val_of_single rfl j q
theorem d1_r1 (j : S1024x256.Idx) (q : dot_S1024x2048_S2048x256_S1024x256_1_0_0_1_n_n.contr.Idx) : (dot_S1024x2048_S2048x256_S1024x256_1_0_0_1_n_n.rhsIdx j q 1).val = (j 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- [1024, 2048] times [2048, 256]: entry (r, f) is the sum over k of a(r, k) * b(k, f). -/
theorem mm1_apply (a : FVec Ideal S1024x2048 .bf16) (b : FVec Ideal S2048x256 .bf16) (r : Fin 1024) (f : Fin 256) :
    matmul dot_S1024x2048_S2048x256_S1024x256_1_0_0_1_n_n none a b (constant (F := Ideal) S1024x256 .f32 0x00000000#32) (ix2 r f)
      = ∑ k : Fin 2048, a (ix2 r k) * b (ix2 k f) := by
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 r f) ((contrEquiv1 dot_S1024x2048_S2048x256_S1024x256_1_0_0_1_n_n 2048 rfl rfl).symm k) = ix2 r k :=
    funext fun ax => Fin.ext (by
      match ax with
      | ⟨0, _⟩ => exact d1_l0 _ _
      | ⟨1, _⟩ => exact (d1_l1 _ _).trans hk)
  have er : dot_S1024x2048_S2048x256_S1024x256_1_0_0_1_n_n.rhsIdx (ix2 r f) ((contrEquiv1 dot_S1024x2048_S2048x256_S1024x256_1_0_0_1_n_n 2048 rfl rfl).symm k) = ix2 k f :=
    funext fun ax => Fin.ext (by
      match ax with
      | ⟨0, _⟩ => exact (d1_r0 _ _).trans hk
      | ⟨1, _⟩ => exact d1_r1 _ _)
  rw [el, er]

/-- The same for the second product. -/
theorem d2_l0 (j : S1024x2048.Idx) (q : dot_S1024x256_S256x2048_S1024x2048_1_0_0_1_n_n.contr.Idx) : (dot_S1024x256_S256x2048_S1024x2048_1_0_0_1_n_n.lhsIdx j q 0).val = (j 0).val := by
  unfold DotDims.lhsIdx
  rw [dif_neg (show ¬(0 : Fin S1024x256.rank) ∈ dot_S1024x256_S256x2048_S1024x2048_1_0_0_1_n_n.lhsBatch by decide),
    dif_pos (show (0 : Fin S1024x256.rank) ∈ dot_S1024x256_S256x2048_S1024x2048_1_0_0_1_n_n.lhsNonContracting by decide)]
  rfl
theorem d2_l1 (j : S1024x2048.Idx) (q : dot_S1024x256_S256x2048_S1024x2048_1_0_0_1_n_n.contr.Idx) : (dot_S1024x256_S256x2048_S1024x2048_1_0_0_1_n_n.lhsIdx j q 1).val = (q ⟨0, by decide⟩).val :=
  dot_S1024x256_S256x2048_S1024x2048_1_0_0_1_n_n.lhsIdx_val_of_single rfl j q
theorem d2_r0 (j : S1024x2048.Idx) (q : dot_S1024x256_S256x2048_S1024x2048_1_0_0_1_n_n.contr.Idx) : (dot_S1024x256_S256x2048_S1024x2048_1_0_0_1_n_n.rhsIdx j q 0).val = (q ⟨0, by decide⟩).val :=
  dot_S1024x256_S256x2048_S1024x2048_1_0_0_1_n_n.rhsIdx_val_of_single rfl j q
theorem d2_r1 (j : S1024x2048.Idx) (q : dot_S1024x256_S256x2048_S1024x2048_1_0_0_1_n_n.contr.Idx) : (dot_S1024x256_S256x2048_S1024x2048_1_0_0_1_n_n.rhsIdx j q 1).val = (j 1).val := by
  unfold DotDims.rhsIdx
  rw [dif_neg (show ¬(1 : Fin S256x2048.rank) ∈ dot_S1024x256_S256x2048_S1024x2048_1_0_0_1_n_n.rhsBatch by decide),
    dif_pos (show (1 : Fin S256x2048.rank) ∈ dot_S1024x256_S256x2048_S1024x2048_1_0_0_1_n_n.rhsNonContracting by decide)]
  rfl

/-- [1024, 256] times [256, 2048]: entry (r, h) is the sum over f of a(r, f) * b(f, h). -/
theorem mm2_apply (a : FVec Ideal S1024x256 .bf16) (b : FVec Ideal S256x2048 .bf16) (r : Fin 1024) (h : Fin 2048) :
    matmul dot_S1024x256_S256x2048_S1024x2048_1_0_0_1_n_n none a b (constant (F := Ideal) S1024x2048 .f32 0x00000000#32) (ix2 r h)
      = ∑ k : Fin 256, a (ix2 r k) * b (ix2 k h) := by
  simp only [matmul]
  rw [Ideal.matmul_constant_zero_apply, ← Equiv.sum_comp (contrEquiv1 dot_S1024x256_S256x2048_S1024x2048_1_0_0_1_n_n 256 rfl rfl).symm]
  refine Finset.sum_congr rfl fun k _ => ?_
  have hk := contrEquiv1_symm_val dot_S1024x256_S256x2048_S1024x2048_1_0_0_1_n_n 256 rfl rfl k
  have el : dot_S1024x256_S256x2048_S1024x2048_1_0_0_1_n_n.lhsIdx (ix2 r h) ((contrEquiv1 dot_S1024x256_S256x2048_S1024x2048_1_0_0_1_n_n 256 rfl rfl).symm k) = ix2 r k :=
    funext fun ax => Fin.ext (by
      match ax with
      | ⟨0, _⟩ => exact d2_l0 _ _
      | ⟨1, _⟩ => exact (d2_l1 _ _).trans hk)
  have er : dot_S1024x256_S256x2048_S1024x2048_1_0_0_1_n_n.rhsIdx (ix2 r h) ((contrEquiv1 dot_S1024x256_S256x2048_S1024x2048_1_0_0_1_n_n 256 rfl rfl).symm k) = ix2 k h :=
    funext fun ax => Fin.ext (by
      match ax with
      | ⟨0, _⟩ => exact (d2_r0 _ _).trans hk
      | ⟨1, _⟩ => exact d2_r1 _ _)
  rw [el, er]

/-! ## A tile's product, in three named steps -/

variable {F : FTy → Type} [FloatOps F]

/-- The first layer on one tile, before the activation: x times w1, plus the bias row on every token. -/
def pre (x0 : Vec F S1x1024x2048 .f32) (x1 : Vec F S1x2048x256 .f32) (x2 : Vec F S1x1x256 .f32) : FVec F S1024x256 .f32 :=
  addf (matmul dot_S1024x2048_S2048x256_S1024x256_1_0_0_1_n_n none
      (truncf .bf16 (shapeCast S1024x2048 x0 shapeCasts_S1x1024x2048_S1024x2048) bitsLt_bf16_f32)
      (truncf .bf16 (shapeCast S2048x256 x1 shapeCasts_S1x2048x256_S2048x256) bitsLt_bf16_f32)
      (constant S1024x256 .f32 0x00000000#32))
    (broadcastTo S1024x256 (shapeCast S1x256 (shapeCast S256 x2 shapeCasts_S1x1x256_S256) shapeCasts_S256_S1x256)
      broadcasts_S1x256_S1024x256)

/-- The tanh-form GELU, entry by entry, as the body spells it. -/
def act (v : FVec F S1024x256 .f32) : FVec F S1024x256 .bf16 :=
  truncf .bf16 (mulf v (mulf (broadcast S1024x256 (Scalar.ofBits .f32 0x3F000000#32))
    (addf (broadcast S1024x256 (Scalar.ofBits .f32 0x3F800000#32))
      (tanh (mulf (broadcast S1024x256 (Scalar.ofBits .f32 0x3F4C422A#32))
        (addf v (mulf (broadcast S1024x256 (Scalar.ofBits .f32 0x3D372713#32)) (mulf v (mulf v v))))))))) bitsLt_bf16_f32

/-- The body's product payload is the second matrix product of the activated first layer with the w2 tile. -/
theorem pay4_eq (x0 : Vec F S1x1024x2048 .f32) (x1 : Vec F S1x2048x256 .f32) (x2 : Vec F S1x1x256 .f32) (x3 : Vec F S1x256x2048 .f32) :
    k0_pay4 x0 x1 x2 x3 = matmul dot_S1024x256_S256x2048_S1024x2048_1_0_0_1_n_n none (act (pre x0 x1 x2))
      (truncf .bf16 (shapeCast S256x2048 x3 shapeCasts_S1x256x2048_S256x2048) bitsLt_bf16_f32)
      (constant S1024x2048 .f32 0x00000000#32) := rfl

/-- The bias row of a tile: [1, 1, 256] viewed [256] reads (0, 0, f) at f. -/
theorem row256_apply {α : Type} (x : S1x1x256.Idx → α) (f : Fin 256) :
    shapeCast S256 x shapeCasts_S1x1x256_S256 (ix1 f) = x (ix3 (0 : Fin 1) (0 : Fin 1) f) :=
  shapeCast_apply x _ _ _ (by
    rw [Shape.rowMajor_val_three, Shape.rowMajor_val_one]
    show (0 * 1 + 0) * 256 + f.val = f.val
    omega)

/-- The second bias row: [1, 1, 2048] viewed [2048] reads (0, 0, h) at h. -/
theorem row2048_apply {α : Type} (x : S1x1x2048.Idx → α) (h : Fin 2048) :
    shapeCast S2048 x shapeCasts_S1x1x2048_S2048 (ix1 h) = x (ix3 (0 : Fin 1) (0 : Fin 1) h) :=
  shapeCast_apply x _ _ _ (by
    rw [Shape.rowMajor_val_three, Shape.rowMajor_val_one]
    show (0 * 1 + 0) * 2048 + h.val = h.val
    omega)

/-- The first layer before the activation, at token r and hidden unit f of the tile. -/
theorem pre_apply (x0 : Vec Ideal S1x1024x2048 .f32) (x1 : Vec Ideal S1x2048x256 .f32) (x2 : Vec Ideal S1x1x256 .f32)
    (r : Fin 1024) (f : Fin 256) :
    pre (F := Ideal) x0 x1 x2 (ix2 r f)
      = (∑ k : Fin 2048, x0 (ix3 (0 : Fin 1) r k) * x1 (ix3 (0 : Fin 1) k f)) + x2 (ix3 (0 : Fin 1) (0 : Fin 1) f) := by
  unfold pre
  rw [addf_apply, mm1_apply, broadcastTo_1b_ab_apply, shapeCast_a_1a_apply, row256_apply]
  refine congrArg (· + x2 (ix3 (0 : Fin 1) (0 : Fin 1) f)) (Finset.sum_congr rfl fun k _ => ?_)
  rw [truncf_apply, truncf_apply, shapeCast_1ab_ab_apply, shapeCast_1ab_ab_apply]

/-- The activation at an entry is the GELU of that entry. -/
theorem act_apply (v : FVec Ideal S1024x256 .f32) (j : S1024x256.Idx) : act (F := Ideal) v j = gelu (v j) := rfl

/-- The tile's product at (r, h): the sum over the tile's hidden units of the activated first layer times w2. -/
theorem pay4_apply (x0 : Vec Ideal S1x1024x2048 .f32) (x1 : Vec Ideal S1x2048x256 .f32) (x2 : Vec Ideal S1x1x256 .f32)
    (x3 : Vec Ideal S1x256x2048 .f32) (r : Fin 1024) (h : Fin 2048) :
    k0_pay4 (F := Ideal) x0 x1 x2 x3 (ix2 r h)
      = ∑ f : Fin 256, gelu ((∑ k : Fin 2048, x0 (ix3 (0 : Fin 1) r k) * x1 (ix3 (0 : Fin 1) k f)) + x2 (ix3 (0 : Fin 1) (0 : Fin 1) f))
          * x3 (ix3 (0 : Fin 1) f h) := by
  rw [pay4_eq, mm2_apply]
  refine Finset.sum_congr rfl fun f _ => ?_
  rw [act_apply, pre_apply, truncf_apply, shapeCast_1ab_ab_apply]

/-! ## The accumulator's reset and step, and the output block -/

/-- The reset block is zero at every entry. -/
theorem pay3_apply (j : S1024x2048.Idx) : k0_pay3 (F := Ideal) j = Ideal.ofBits .f32 0x00000000#32 := by
  unfold k0_pay3
  rw [shapeCast_self]
  rfl

/-- A step adds the tile's product to the accumulator, entry by entry. -/
theorem pay1_apply (a b : Vec Ideal S1024x2048 .f32) (j : S1024x2048.Idx) : k0_pay1 (F := Ideal) a b j = a j + b j := by
  unfold k0_pay1
  rw [shapeCast_self]
  rfl

/-- The output block at (0, r, h): the accumulator at (r, h) plus the second bias row at h. -/
theorem pay2_apply (a : Vec Ideal S1024x2048 .f32) (x4 : Vec Ideal S1x1x2048 .f32) (u : Fin 1) (r : Fin 1024) (h : Fin 2048) :
    k0_pay2 (F := Ideal) a x4 (ix3 u r h) = a (ix2 r h) + x4 (ix3 (0 : Fin 1) (0 : Fin 1) h) := by
  unfold k0_pay2
  rw [shapeCast_ab_1ab_apply, addf_apply, broadcastTo_1b_ab_apply, shapeCast_a_1a_apply, row2048_apply]

end Cert.KernelIdeal.Payload

end
-- ==== Proof.Accum.lean ====
/-
  The carried accumulator, point by point.

  The 512 grid points run in 16 groups of 32 consecutive points: a group is one expert e and one token tile ci, and its
  points are the 32 hidden tiles fi = 0 .. 31 in order. The accumulator is reset at a group's first point and receives
  one tile's product at each of its points, so after the group's point number j it holds
  zero plus the sum of the products of tiles 0 .. j, entry by entry. This is an induction along a group, not an
  enumeration of the grid. At the group's last point the output block is that accumulator plus the second bias row.
-/
import proofs.«150474_j75711683494339_2_alg».proof.Proof.Gen.KernelIdeal.Frame
import proofs.«150474_j75711683494339_2_alg».proof.Proof.Pieces
import proofs.«150474_j75711683494339_2_alg».proof.Proof.Payload
import Idealize.ShloMosaic.Lib.Pipeline.Value

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Pieces Cert.KernelIdeal.Payload
open Idealize.ShloMosaic.Pipeline (accAt eq_accAt_of_mod accAt_add_apply)

variable (m : (ℓ : Loc nD τ sig) → Buf (Elt Ideal) ℓ)

/-- The product of the tile a point reads: the body's product payload at the point's four input blocks. -/
def tile (c : Dev nD) (n : ℕ) (h : n < cfg0.N) : Vec Ideal S1024x2048 .f32 :=
  k0_pay4 (iblk m c 0 ⟨n, h⟩) (iblk m c 1 ⟨n, h⟩) (iblk m c 2 ⟨n, h⟩) (iblk m c 3 ⟨n, h⟩)

/-- What the accumulator holds after the body at a point. -/
def acc (c : Dev nD) (n : ℕ) (h : n < cfg0.N) : Vec Ideal S1024x2048 .f32 := (outsAt0 m c n h).2

/-- At a group's first point the accumulator is left at the zero block plus the point's product. -/
theorem acc_reset (c : Dev nD) (n : ℕ) (h : n < cfg0.N) (h0 : n % 32 = 0) :
    acc m c n h = k0_pay1 (F := Ideal) (k0_pay3 (F := Ideal)) (tile m c n h) := by
  have h1 : ¬n % 32 = 31 := by omega
  unfold acc tile
  rw [outsAt0_A m c ⟨n, h⟩ h0 h1]
  dsimp only
  exact scratch_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) scM0_0 (Memref.isWhole_whole _)
    ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩)

/-- At every other point it is left at what the point before left plus the point's product. -/
theorem acc_step (c : Dev nD) (n : ℕ) (h : n + 1 < cfg0.N) (h0 : ¬(n + 1) % 32 = 0) :
    acc m c (n + 1) h = k0_pay1 (F := Ideal) (acc m c n (Nat.lt_of_succ_lt h)) (tile m c (n + 1) h) := by
  unfold acc tile
  by_cases h1 : (n + 1) % 32 = 31
  · rw [outsAt0_C m c ⟨n + 1, h⟩ h0 h1]
    dsimp only
    exact scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _)
      (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)).2
  · rw [outsAt0_B m c ⟨n + 1, h⟩ h0 h1]
    dsimp only
    exact scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _)
      (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩)
      (outsAt0 m c n (Nat.lt_of_succ_lt h)).2

/-- A point's product at an entry, as a function of every natural number: zero past the grid. -/
def tileN (c : Dev nD) (n : ℕ) (i : S1024x2048.Idx) : EReal := if h : n < cfg0.N then tile m c n h i else 0

theorem tileN_of_lt (c : Dev nD) (n : ℕ) (h : n < cfg0.N) (i : S1024x2048.Idx) : tileN m c n i = tile m c n h i := dif_pos h

/-- The accumulator after any point `t`, at an entry: zero plus the products of the points from the start of `t`'s group
    up to `t`. -/
theorem acc_apply (c : Dev nD) (t : ℕ) (ht : t < cfg0.N) (i : S1024x2048.Idx) :
    acc m c t ht i = Ideal.ofBits .f32 0x00000000#32 + ∑ s ∈ Finset.range (t % 32 + 1), tileN m c (32 * (t / 32) + s) i := by
  have h' : 32 * (t / 32) + t % 32 < cfg0.N := by rw [Nat.div_add_mod]; exact ht
  rw [eq_accAt_of_mod (acc m c) 32 (fun n h => k0_pay1 (F := Ideal) (k0_pay3 (F := Ideal)) (tile m c n h))
    (fun n h a => k0_pay1 (F := Ideal) a (tile m c n h)) (acc_reset m c) (acc_step m c) (by decide) t ht h']
  exact accAt_add_apply (fun n h => k0_pay1 (F := Ideal) (k0_pay3 (F := Ideal)) (tile m c n h)) (fun n h a => k0_pay1 (F := Ideal) a (tile m c n h))
    (fun _ => Ideal.ofBits .f32 0x00000000#32) (tileN m c) (32 * (t / 32)) (t % 32)
    (fun h i => by rw [pay1_apply, pay3_apply, tileN_of_lt m c _ h])
    (fun n h a i _ _ => by rw [pay1_apply, tileN_of_lt m c _ h])
    (t % 32) (le_refl _) h' i

/-- At a group's last point the output block is the accumulator it leaves plus the second bias row. -/
theorem out_last (c : Dev nD) (t : Fin cfg0.N) (h31 : t.val % 32 = 31) :
    (outsAt0 m c t.val t.isLt).1 = k0_pay2 (F := Ideal) (acc m c t.val t.isLt) (iblk m c 4 t) := by
  have h0 : ¬t.val % 32 = 0 := by omega
  unfold acc
  rw [outsAt0_C m c t h0 h31]
  dsimp only
  rw [scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun hh => h0 ((hcond0_0 t).mp hh)) ((hcond0_1 t).mpr h31) (iblk m c 0 t) (iblk m c 1 t) (iblk m c 2 t) (iblk m c 3 t) (iblk m c 4 t)
      (outsAt0 m c (t.val - 1) (Nat.lt_of_le_of_lt (Nat.sub_le _ _) t.isLt)).2]
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun hh => h0 ((hcond0_0 t).mp hh)) ((hcond0_1 t).mpr h31) (iblk m c 0 t) (iblk m c 1 t) (iblk m c 2 t) (iblk m c 3 t) (iblk m c 4 t)
      (outsAt0 m c (t.val - 1) (Nat.lt_of_le_of_lt (Nat.sub_le _ _) t.isLt)).2

end Cert.KernelIdeal.Accum

end
-- ==== Proof.Blocks.lean ====
/-
  The blocks a grid point reads, as entries of the arrays the region finds.

  Point number t of the grid is (e, ci, fi) with e = t / 64, ci = (t / 32) % 2, fi = t % 32. A block's entry sits in its
  array at block index times block extent plus the coordinate inside the block, axis by axis:
    the token block      (0, r, k)  at (e, 1024 * ci + r, k) of the grouped input,
    the first weights    (0, k, f') at (e, k, 256 * fi + f'),
    the first bias row   (0, 0, f') at (e, 0, 256 * fi + f'),
    the second weights   (0, f', h) at (e, 256 * fi + f', h),
    the second bias row  (0, 0, h)  at (e, 0, h).
  So the product of the tile a point reads is the specification's sum of terms over the hidden units 256 * fi .. 256 * fi + 255.
-/
import proofs.«150474_j75711683494339_2_alg».proof.Proof.Accum

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Payload Cert.KernelIdeal.Accum Cert.Spec

variable (m : (ℓ : Loc nD τ sig) → Buf (Elt Ideal) ℓ)

/-- The printed index maps in closed form, decided over the 512 points. -/
theorem idx_facts : ∀ t : Fin cfg0.N,
    win0_0.index t (0 : Fin 3) = t.val / 64 ∧ win0_0.index t (1 : Fin 3) = t.val / 32 % 2 ∧ win0_0.index t (2 : Fin 3) = 0
    ∧ win0_1.index t (0 : Fin 3) = t.val / 64 ∧ win0_1.index t (1 : Fin 3) = 0 ∧ win0_1.index t (2 : Fin 3) = t.val % 32
    ∧ win0_2.index t (0 : Fin 3) = t.val / 64 ∧ win0_2.index t (1 : Fin 3) = 0 ∧ win0_2.index t (2 : Fin 3) = t.val % 32
    ∧ win0_3.index t (0 : Fin 3) = t.val / 64 ∧ win0_3.index t (1 : Fin 3) = t.val % 32 ∧ win0_3.index t (2 : Fin 3) = 0
    ∧ win0_4.index t (0 : Fin 3) = t.val / 64 ∧ win0_4.index t (1 : Fin 3) = 0 ∧ win0_4.index t (2 : Fin 3) = 0
    ∧ win0_5.index t (0 : Fin 3) = t.val / 64 ∧ win0_5.index t (1 : Fin 3) = t.val / 32 % 2 ∧ win0_5.index t (2 : Fin 3) = 0 :=
  (by decide +kernel : ∀ t : Fin grid0.N, _)

/-- The token block. -/
theorem blk0_apply (c : Dev nD) (t : Fin cfg0.N) (r : Fin 1024) (k : Fin 2048) (E : Fin 8) (C : Fin 2048)
    (hE : E.val = t.val / 64) (hC : C.val = 1024 * (t.val / 32 % 2) + r.val) :
    (iblk m c 0 t : Vec Ideal S1x1024x2048 .f32) (ix3 (0 : Fin 1) r k) = V m c main_v0 (ix3 E C k) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 3) * 1 + 1 * 0 = E.val; omega
  | ⟨1, _⟩ => show win0_0.index t (1 : Fin 3) * 1024 + 1 * r.val = C.val; omega
  | ⟨2, _⟩ => show win0_0.index t (2 : Fin 3) * 2048 + 1 * k.val = k.val; omega

/-- The first layer's weight tile. -/
theorem blk1_apply (c : Dev nD) (t : Fin cfg0.N) (k : Fin 2048) (f : Fin 256) (E : Fin 8) (Fq : Fin 8192)
    (hE : E.val = t.val / 64) (hF : Fq.val = 256 * (t.val % 32) + f.val) :
    (iblk m c 1 t : Vec Ideal S1x2048x256 .f32) (ix3 (0 : Fin 1) k f) = V m c main_arg2 (ix3 E k Fq) := by
  obtain ⟨-, -, -, e0, e1, e2, -⟩ := idx_facts t
  unfold iblk
  rw [View.read_apply]
  show V m c main_arg2 _ = V m c main_arg2 _
  refine congrArg (V m c main_arg2) (funext fun a => Fin.ext ?_)
  match a with
  | ⟨0, _⟩ => show win0_1.index t (0 : Fin 3) * 1 + 1 * 0 = E.val; omega
  | ⟨1, _⟩ => show win0_1.index t (1 : Fin 3) * 2048 + 1 * k.val = k.val; omega
  | ⟨2, _⟩ => show win0_1.index t (2 : Fin 3) * 256 + 1 * f.val = Fq.val; omega

/-- The first layer's bias tile. -/
theorem blk2_apply (c : Dev nD) (t : Fin cfg0.N) (f : Fin 256) (E : Fin 8) (Fq : Fin 8192)
    (hE : E.val = t.val / 64) (hF : Fq.val = 256 * (t.val % 32) + f.val) :
    (iblk m c 2 t : Vec Ideal S1x1x256 .f32) (ix3 (0 : Fin 1) (0 : Fin 1) f) = V m c main_v1 (ix3 E (0 : Fin 1) Fq) := by
  obtain ⟨-, -, -, -, -, -, e0, e1, e2, -⟩ := idx_facts t
  unfold iblk
  rw [View.read_apply]
  show V m c main_v1 _ = V m c main_v1 _
  refine congrArg (V m c main_v1) (funext fun a => Fin.ext ?_)
  match a with
  | ⟨0, _⟩ => show win0_2.index t (0 : Fin 3) * 1 + 1 * 0 = E.val; omega
  | ⟨1, _⟩ => show win0_2.index t (1 : Fin 3) * 1 + 1 * 0 = 0; omega
  | ⟨2, _⟩ => show win0_2.index t (2 : Fin 3) * 256 + 1 * f.val = Fq.val; omega

/-- The second layer's weight tile. -/
theorem blk3_apply (c : Dev nD) (t : Fin cfg0.N) (f : Fin 256) (h : Fin 2048) (E : Fin 8) (Fq : Fin 8192)
    (hE : E.val = t.val / 64) (hF : Fq.val = 256 * (t.val % 32) + f.val) :
    (iblk m c 3 t : Vec Ideal S1x256x2048 .f32) (ix3 (0 : Fin 1) f h) = V m c main_arg4 (ix3 E Fq h) := by
  obtain ⟨-, -, -, -, -, -, -, -, -, e0, e1, e2, -⟩ := idx_facts t
  unfold iblk
  rw [View.read_apply]
  show V m c main_arg4 _ = V m c main_arg4 _
  refine congrArg (V m c main_arg4) (funext fun a => Fin.ext ?_)
  match a with
  | ⟨0, _⟩ => show win0_3.index t (0 : Fin 3) * 1 + 1 * 0 = E.val; omega
  | ⟨1, _⟩ => show win0_3.index t (1 : Fin 3) * 256 + 1 * f.val = Fq.val; omega
  | ⟨2, _⟩ => show win0_3.index t (2 : Fin 3) * 2048 + 1 * h.val = h.val; omega

/-- The second layer's bias row. -/
theorem blk4_apply (c : Dev nD) (t : Fin cfg0.N) (h : Fin 2048) (E : Fin 8) (hE : E.val = t.val / 64) :
    (iblk m c 4 t : Vec Ideal S1x1x2048 .f32) (ix3 (0 : Fin 1) (0 : Fin 1) h) = V m c main_v2 (ix3 E (0 : Fin 1) h) := by
  obtain ⟨-, -, -, -, -, -, -, -, -, -, -, -, e0, e1, e2, -⟩ := idx_facts t
  unfold iblk
  rw [View.read_apply]
  show V m c main_v2 _ = V m c main_v2 _
  refine congrArg (V m c main_v2) (funext fun a => Fin.ext ?_)
  match a with
  | ⟨0, _⟩ => show win0_4.index t (0 : Fin 3) * 1 + 1 * 0 = E.val; omega
  | ⟨1, _⟩ => show win0_4.index t (1 : Fin 3) * 1 + 1 * 0 = 0; omega
  | ⟨2, _⟩ => show win0_4.index t (2 : Fin 3) * 2048 + 1 * h.val = h.val; omega

/-- The product of the tile that point `n` reads, at token row r and output column h: the specification's terms of token
    1024 * ci + r of expert e towards h, summed over the hidden units of tile fi. -/
theorem tile_apply (c : Dev nD) (n : ℕ) (hn : n < cfg0.N) (r : Fin 1024) (h : Fin 2048) (E : Fin 8) (C : Fin 2048)
    (hE : E.val = n / 64) (hC : C.val = 1024 * (n / 32 % 2) + r.val) :
    tile m c n hn (ix2 r h)
      = ∑ f : Fin 256, termN (V m c main_v0) (V m c main_arg2) (V m c main_v1) (V m c main_arg4) E C h (256 * (n % 32) + f.val) := by
  unfold tile
  rw [pay4_apply]
  refine Finset.sum_congr rfl fun f _ => ?_
  have hF : 256 * (n % 32) + f.val < 8192 := by have := f.isLt; omega
  rw [termN_of_lt _ _ _ _ _ _ _ _ hF]
  unfold term hid
  rw [blk2_apply m c ⟨n, hn⟩ f E ⟨_, hF⟩ hE rfl, blk3_apply m c ⟨n, hn⟩ f h E ⟨_, hF⟩ hE rfl]
  refine congrArg (fun s => gelu (s + _) * _) (Finset.sum_congr rfl fun k _ => ?_)
  rw [blk0_apply m c ⟨n, hn⟩ r k E C hE hC, blk1_apply m c ⟨n, hn⟩ k f E ⟨_, hF⟩ hE rfl]

end Cert.KernelIdeal.Blocks

end
-- ==== Proof.KernelValue.lean ====
/-
  The kernel's result, as one function of its arguments.

  The output array of the region is written back only at the last point of each group of 32 points: the block
  (e, ci) receives the accumulated products of all 32 hidden tiles plus the second bias row, which is the specification's
  result for tokens 1024 * ci .. 1024 * ci + 1023 of expert e (the sum over the 8192 hidden units taken as 32 runs of 256).
  The 16 blocks tile the array. The host then views the [8, 2048, 2048] array as [16384, 2048].
-/
import proofs.«150474_j75711683494339_2_alg».proof.Proof.Blocks
import Idealize.ShloMosaic.Lib.StableHlo.Run

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload Cert.KernelIdeal.Accum Cert.KernelIdeal.Blocks Cert.Spec

variable (m : (ℓ : Loc nD τ sig) → Buf (Elt Ideal) ℓ) (ρ : Dev nD → PrngReg)

/-- What the region's output array ends holding: the specification's function of the arrays the region finds. -/
def expertOut (c : Dev nD) : Buf (Elt Ideal) ((c : Thread nD τ).loc main_v3) :=
  out3 (V m c main_v0) (V m c main_arg2) (V m c main_v1) (V m c main_arg4) (V m c main_v2)

/-- At a group's last point the output block's entry (0, r, h) is the result for token 1024 * ci + r of expert e at h. -/
theorem last_entry (c : Dev nD) (t : Fin cfg0.N) (h31 : t.val % 32 = 31) (u : Fin 1) (r : Fin 1024) (h : Fin 2048)
    (E : Fin 8) (C : Fin 2048) (hE : E.val = t.val / 64) (hC : C.val = 1024 * (t.val / 32 % 2) + r.val) :
    k0_pay2 (F := Ideal) (acc m c t.val t.isLt) (iblk m c 4 t) (ix3 u r h) = expertOut m c (ix3 E C h) := by
  have hN : t.val < 512 := lt_of_lt_of_eq t.isLt N_0
  have e32 : t.val % 32 + 1 = 32 := by omega
  rw [pay2_apply, acc_apply, blk4_apply m c t h E hE, e32, Ideal.ofBits_zero_f32, zero_add]
  show _ = (∑ f : Fin 8192, term (V m c main_v0) (V m c main_arg2) (V m c main_v1) (V m c main_arg4) E C h f)
    + V m c main_v2 (ix3 E (0 : Fin 1) h)
  rw [sum_term_runs]
  refine congrArg (· + V m c main_v2 (ix3 E (0 : Fin 1) h)) (Finset.sum_congr rfl fun s hs => ?_)
  have hs' : s < 32 := Finset.mem_range.mp hs
  have hn : 32 * (t.val / 32) + s < cfg0.N := lt_of_lt_of_eq (by omega : 32 * (t.val / 32) + s < 512) N_0.symm
  rw [tileN_of_lt m c _ hn, tile_apply m c _ hn r h E C (by omega) (by omega),
    show (32 * (t.val / 32) + s) % 32 = s from by omega]

/-- What a group's last point writes back is its block of `expertOut`. -/
theorem lastPoint_writes (c : Dev nD) (t : Fin cfg0.N) (hf : (cfg0.win 5).flush t = true) :
    (dats m 0 c).flushed 5 t = ((cfg0.win 5).blk t).view.read (Elt Ideal) (expertOut m c) := by
  have h31 : t.val % 32 = 31 := (flush0_5 t).mp hf
  have hN : t.val < 512 := lt_of_lt_of_eq t.isLt N_0
  obtain ⟨-, -, -, -, -, -, -, -, -, -, -, -, -, -, -, e0, e1, e2⟩ := idx_facts t
  show (cfg0.win 5).cut (grid0.coords t) ((dats m 0 c).after 5 t) = _
  rw [after0_5, out_last m c t h31]
  funext y
  obtain ⟨u, r, h, rfl⟩ : ∃ (u : Fin 1) (r : Fin 1024) (h : Fin 2048), y = ix3 u r h := ⟨y 0, y 1, y 2, eq_ix3 y⟩
  have hu : u.val = 0 := by omega
  have hr : r.val < 1024 := r.isLt
  have hemb : ((cfg0.win 5).blk t).view.emb (ix3 u r h)
      = ix3 (⟨t.val / 64, by omega⟩ : Fin 8) (⟨1024 * (t.val / 32 % 2) + r.val, by omega⟩ : Fin 2048) h := by
    funext a; apply Fin.ext
    match a with
    | ⟨0, _⟩ => show win0_5.index t (0 : Fin 3) * 1 + 1 * u.val = t.val / 64; omega
    | ⟨1, _⟩ => show win0_5.index t (1 : Fin 3) * 1024 + 1 * r.val = 1024 * (t.val / 32 % 2) + r.val; omega
    | ⟨2, _⟩ => show win0_5.index t (2 : Fin 3) * 2048 + 1 * h.val = h.val; omega
  show k0_pay2 (F := Ideal) (acc m c t.val t.isLt) (iblk m c 4 t) (ix3 u r h) = expertOut m c (((cfg0.win 5).blk t).view.emb (ix3 u r h))
  rw [hemb]
  exact last_entry m c t h31 u r h _ _ rfl rfl

/-- An index of the output array is in point `t`'s block iff each coordinate is in the block's range on its axis. -/
theorem mem_outBlock (t : Fin cfg0.N) (i : S8x2048x2048.Idx) :
    i ∈ ((cfg0.win 5).blk t).view.set
      ↔ ∀ a : Fin 3, win0_5.index t a * S1x1024x2048.size a ≤ (i a).val ∧ (i a).val < win0_5.index t a * S1x1024x2048.size a + S1x1024x2048.size a := by
  show i ∈ ((View.whole main_v3).slice (win0_5.rect t)).set ↔ _
  rw [View.set_slice_whole, Rect.mem_set_unit]
  exact Iff.rfl

/-- Every entry of the output array is in the block some last point writes back: entry (e, c, h) in that of
    point 64 * e + 32 * (c / 1024) + 31. -/
theorem lastBlocks_tile (i : S8x2048x2048.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 2048 := (i 2).isLt
  have hlt : 64 * (i 0).val + 32 * ((i 1).val / 1024) + 31 < cfg0.N := lt_of_lt_of_eq (by omega : _ < 512) N_0.symm
  obtain ⟨-, -, -, -, -, -, -, -, -, -, -, -, -, -, -, e0, e1, e2⟩ := idx_facts ⟨_, hlt⟩
  have tv : (⟨_, hlt⟩ : Fin cfg0.N).val = 64 * (i 0).val + 32 * ((i 1).val / 1024) + 31 := rfl
  refine ⟨⟨_, hlt⟩, (flush0_5 _).mpr (by rw [tv]; omega), ?_⟩
  rw [mem_outBlock]
  intro a
  match a with
  | ⟨0, _⟩ =>
    show win0_5.index ⟨_, hlt⟩ (0 : Fin 3) * 1 ≤ (i 0).val ∧ (i 0).val < win0_5.index ⟨_, hlt⟩ (0 : Fin 3) * 1 + 1
    rw [e0, tv]; omega
  | ⟨1, _⟩ =>
    show win0_5.index ⟨_, hlt⟩ (1 : Fin 3) * 1024 ≤ (i 1).val ∧ (i 1).val < win0_5.index ⟨_, hlt⟩ (1 : Fin 3) * 1024 + 1024
    rw [e1, tv]; omega
  | ⟨2, _⟩ =>
    show win0_5.index ⟨_, hlt⟩ (2 : Fin 3) * 2048 ≤ (i 2).val ∧ (i 2).val < win0_5.index ⟨_, hlt⟩ (2 : Fin 3) * 2048 + 2048
    rw [e2]; omega

/-- The output array after the region is `expertOut`. -/
theorem outArray_eq (c : Dev nD) : (dats m 0 c).arrAt 5 cfg0.N = expertOut m c :=
  (dats m 0 c).arrAt_eq_of_cover 5 (expertOut m c) (lastPoint_writes m c) (lastBlocks_tile)

/-- The host's reshape after the region reads that array. -/
theorem result_view_eq (c : Dev nD) :
    Pipeline.afterTail₀ cfgs (dats m) 0 (V0 m) [hostOps1] c main_v4
      = shapeCast _ (expertOut m c) shapeCasts_S8x2048x2048_S16384x2048 := by
  unfold Pipeline.afterTail₀
  show StableHlo.after hostOps1 _ (Proc.devRef .tc main_v4) = _
  after_results
  have e : (Pipeline.withArrays (cfgs 0).spec c (V0 m c) (fun w => (dats m 0 c).arrAt w (cfgs 0).N)
      (Proc.devRef .tc main_v3) : Buf (Elt Ideal) ((c : Thread nD τ).loc main_v3)) = expertOut m c :=
    (Pipeline.withArrays_arr spec0 launch0.win.arr_inj c _ _ 5).trans (outArray_eq m c)
  exact (show _ = shapeCast S16384x2048 (Pipeline.withArrays (cfgs 0).spec c (V0 m c)
      (fun w => (dats m 0 c).arrAt w (cfgs 0).N) (Proc.devRef .tc main_v3)) shapeCasts_S8x2048x2048_S16384x2048 from rfl).trans
    (congrArg (fun a => shapeCast S16384x2048 a shapeCasts_S8x2048x2048_S16384x2048) e)

/-! ## The arrays the region finds, from the arguments -/

/-- The grouped input is the host's view of the [16384, 2048] argument as [8, 2048, 2048]. -/
theorem V_main_v0 (c : Dev nD) :
    (V m c main_v0 : S8x2048x2048.Idx → EReal)
      = shapeCast S8x2048x2048 (m ((c : Thread nD τ).loc main_arg0)) shapeCasts_S16384x2048_S8x2048x2048 := by
  show StableHlo.after hostOps0 (fun b => m (c, b)) (Proc.devRef .tc main_v0) = _
  after_results
  rfl

/-- The first bias with its unit middle axis is the host's view of the [8, 8192] argument as [8, 1, 8192]. -/
theorem V_main_v1 (c : Dev nD) :
    (V m c main_v1 : S8x1x8192.Idx → EReal)
      = shapeCast S8x1x8192 (m ((c : Thread nD τ).loc main_arg3)) shapeCasts_S8x8192_S8x1x8192 := by
  show StableHlo.after hostOps0 (fun b => m (c, b)) (Proc.devRef .tc main_v1) = _
  after_results
  rfl

/-- The second bias likewise: the [8, 2048] argument viewed as [8, 1, 2048]. -/
theorem V_main_v2 (c : Dev nD) :
    (V m c main_v2 : S8x1x2048.Idx → EReal)
      = shapeCast S8x1x2048 (m ((c : Thread nD τ).loc main_arg5)) shapeCasts_S8x2048_S8x1x2048 := by
  show StableHlo.after hostOps0 (fun b => m (c, b)) (Proc.devRef .tc main_v2) = _
  after_results
  rfl

/-- So `expertOut` is the specification's function of the five float arguments, three of them reshaped. -/
theorem expertOut_of_args (c : Dev nD) :
    expertOut m c = out3 (shapeCast S8x2048x2048 (m ((c : Thread nD τ).loc main_arg0)) shapeCasts_S16384x2048_S8x2048x2048)
      (m ((c : Thread nD τ).loc main_arg2))
      (shapeCast S8x1x8192 (m ((c : Thread nD τ).loc main_arg3)) shapeCasts_S8x8192_S8x1x8192)
      (m ((c : Thread nD τ).loc main_arg4))
      (shapeCast S8x1x2048 (m ((c : Thread nD τ).loc main_arg5)) shapeCasts_S8x2048_S8x1x2048) := by
  unfold expertOut
  rw [V_main_v0, V_main_v1, V_main_v2, V_main_arg2, V_main_arg4]

/-! ## The run, read -/

/-- Every weakly fair execution of the program terminates with its result at the reshape of `expertOut` and its six arguments
    unchanged: the generated frame run, its post restated. -/
theorem kernel_run : θ_run defs (onTc (τ := τ) (main (F := Ideal))) ⟨m, fun _ => 0, ρ⟩ (fun r => ∀ c : Dev nD,
      r.2.mem ((c.tc : Thread nD τ).loc main_v4) = shapeCast S16384x2048 (expertOut m c) shapeCasts_S8x2048x2048_S16384x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(((h c).2 main_v4 (Pipeline.mem_restRefs_of main_v4 (by decide) (by decide)))).trans (result_view_eq m c),
      (((h c).2 main_arg0 (Pipeline.mem_restRefs_of main_arg0 (by decide) (by decide)))).trans (W_main_arg0 m (dats m) c),
      (((h c).2 main_arg1 (Pipeline.mem_restRefs_of main_arg1 (by decide) (by decide)))).trans (W_main_arg1 m (dats m) c),
      ((h c).1 1).trans (((dats m 0 c).arrAt_in 1 rfl _).trans ((A_eq m c 1).trans (V_main_arg2 m c))),
      (((h c).2 main_arg3 (Pipeline.mem_restRefs_of main_arg3 (by decide) (by decide)))).trans (W_main_arg3 m (dats m) c),
      ((h c).1 3).trans (((dats m 0 c).arrAt_in 3 rfl _).trans ((A_eq m c 3).trans (V_main_arg4 m c))),
      (((h c).2 main_arg5 (Pipeline.mem_restRefs_of main_arg5 (by decide) (by decide)))).trans (W_main_arg5 m (dats m) c)⟩)
    (run_main m ρ)

end Cert.KernelIdeal.KernelValue

end
-- ==== Proof.RefValue.lean ====
/-
  The reference, read one operation at a time, is the specification's function.

  Its first product contracts the grouped input with the first weights over k, its bias is broadcast over the tokens, the
  GELU is spelt with the same four constants (its cube as (x * x) * x, equal to x * (x * x) by commutativity), and its
  second product contracts over all 8192 hidden units at once.
-/
import proofs.«150474_j75711683494339_2_alg».proof.Proof.Gen.ReferenceIdeal.Read
import proofs.«150474_j75711683494339_2_alg».proof.Proof.Spec

noncomputable section

namespace Cert.ReferenceIdeal.RefValue

open Idealize.ShloMosaic Idealize.ShloMosaic.ValueIdx
open Cert.ReferenceIdeal Cert.ReferenceIdeal.Read Cert.Spec

/-! ## The operand indices the generated lemmas compose, by coordinates -/

theorem lidx1 (i : S8x2048x8192.Idx) (k : Fin 2048) : lidx_main_v1 i k = ix3 (i 0) (i 1) k :=
  funext fun a => by match a with | ⟨0, _⟩ => rfl | ⟨1, _⟩ => rfl | ⟨2, _⟩ => rfl
theorem ridx1 (i : S8x2048x8192.Idx) (k : Fin 2048) : ridx_main_v1 i k = ix3 (i 0) k (i 2) :=
  funext fun a => by match a with | ⟨0, _⟩ => rfl | ⟨1, _⟩ => rfl | ⟨2, _⟩ => rfl
theorem idx3 (i : S8x2048x8192.Idx) : idx_main_v3 i = ix3 (i 0) (0 : Fin 1) (i 2) :=
  funext fun a => by match a with | ⟨0, _⟩ => rfl | ⟨1, _⟩ => rfl | ⟨2, _⟩ => rfl
theorem lidx18 (i : S8x2048x2048.Idx) (k : Fin 8192) : lidx_main_v18 i k = ix3 (i 0) (i 1) k :=
  funext fun a => by match a with | ⟨0, _⟩ => rfl | ⟨1, _⟩ => rfl | ⟨2, _⟩ => rfl
theorem ridx18 (i : S8x2048x2048.Idx) (k : Fin 8192) : ridx_main_v18 i k = ix3 (i 0) k (i 2) :=
  funext fun a => by match a with | ⟨0, _⟩ => rfl | ⟨1, _⟩ => rfl | ⟨2, _⟩ => rfl
theorem idx20 (i : S8x2048x2048.Idx) : idx_main_v20 i = ix3 (i 0) (0 : Fin 1) (i 2) :=
  funext fun a => by match a with | ⟨0, _⟩ => rfl | ⟨1, _⟩ => rfl | ⟨2, _⟩ => rfl

variable (x0 : (⟨S16384x2048, .f32⟩ : BufTy).Contents (Elt Ideal)) (x2 : (⟨S8x2048x8192, .f32⟩ : BufTy).Contents (Elt Ideal))
  (x3 : (⟨S8x8192, .f32⟩ : BufTy).Contents (Elt Ideal)) (x4 : (⟨S8x8192x2048, .f32⟩ : BufTy).Contents (Elt Ideal))
  (x5 : (⟨S8x2048, .f32⟩ : BufTy).Contents (Elt Ideal))

/-- The first layer before the activation. -/
theorem v4_apply (i : S8x2048x8192.Idx) :
    val_main_v4 (F := Ideal) x0 x2 x3 i
      = hid (val_main_v0 (F := Ideal) x0) x2 (val_main_v2 (F := Ideal) x3) (i 0) (i 1) (i 2) := by
  rw [val_main_v4_apply, val_main_v1_apply, val_main_v3_apply]
  unfold hid
  simp only [lidx1, ridx1, idx3]
  rfl

/-- The activation: the same GELU of the same four words. -/
theorem v17_apply (i : S8x2048x8192.Idx) :
    val_main_v17 (F := Ideal) x0 x2 x3 i = gelu (val_main_v4 (F := Ideal) x0 x2 x3 i) := by
  rw [val_main_v17_apply, val_main_v16_apply, val_main_v15_apply, val_main_cst_2_apply, val_main_v14_apply,
    val_main_v13_apply, val_main_cst_1_apply, val_main_v12_apply, val_main_v11_apply, val_main_v10_apply,
    val_main_cst_0_apply, val_main_v9_apply, val_main_v8_apply, val_main_v7_apply, val_main_cst_apply,
    val_main_v6_apply, val_main_v5_apply]
  generalize val_main_v4 (F := Ideal) x0 x2 x3 i = x
  unfold gelu
  simp only [Ideal.mulf_def, Ideal.addf_def, Ideal.hostUnary_tanh_def, Ideal.ofBits_def]
  rw [mul_comm (x * x) x]

/-- The reference's result before its final reshape is the specification's function of its arguments, the grouped input
    and the two bias arrays in the forms the reference builds them. -/
theorem v21_eq :
    val_main_v21 (F := Ideal) x0 x2 x3 x4 x5
      = out3 (val_main_v0 (F := Ideal) x0) x2 (val_main_v2 (F := Ideal) x3) x4 (val_main_v19 (F := Ideal) x5) := by
  funext i
  rw [val_main_v21_apply, val_main_v18_apply, val_main_v20_apply]
  unfold out3 term
  simp only [lidx18, ridx18, idx20]
  rw [Ideal.addf_def]
  refine congrArg (· + val_main_v19 (F := Ideal) x5 (ix3 (i 0) (0 : Fin 1) (i 2))) (Finset.sum_congr rfl fun f _ => ?_)
  exact congrArg (· * x4 (ix3 (i 0) f (i 2)))
    ((v17_apply x0 x2 x3 _).trans (congrArg gelu (v4_apply x0 x2 x3 _)))

end Cert.ReferenceIdeal.RefValue

end
-- ==== Proof.LibUnitAxis.lean ====
/-
  A unit middle axis inserted into a rank-two array, two ways.

  An [a, b] array becomes an [a, 1, b] array either by a reshape (row-major positions are kept) or by a
  broadcast that sends its two axes to axes 0 and 2 of the result. Both read entry (p, 0, q) at the operand's (p, q), so
  they are one array.
-/
import Idealize.ShloMosaic.Lib.Pipeline.Value
import Idealize.ShloMosaic.Lib.ValueIdx

namespace Cert.LibUnitAxis

open Idealize.ShloMosaic Idealize.ShloMosaic.ValueIdx

variable {α : Type} {a b : ℕ}

/-- The reshape [a, b] → [a, 1, b] reads (p, u, q) at (p, q): both have row-major position p * b + q. -/
theorem reshape_mid_apply (x : (⟨2, ![a, b]⟩ : Shape).Idx → α) (h : (⟨2, ![a, b]⟩ : Shape).ShapeCasts ⟨3, ![a, 1, b]⟩)
    (p : Fin a) (u : Fin 1) (q : Fin b) : shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- The broadcast of [a, b] onto axes 0 and 2 of [a, 1, b] reads (p, u, q) at (p, q). -/
theorem bcast_mid_apply (x : (⟨2, ![a, b]⟩ : Shape).Idx → α)
    (h : (⟨2, ![a, b]⟩ : Shape).BroadcastsInDim ⟨3, ![a, 1, b]⟩ ![0, 2]) (p : Fin a) (u : Fin 1) (q : Fin b) :
    broadcastInDim ⟨3, ![a, 1, b]⟩ ![0, 2] h x (ix3 p u q) = x (ix2 p q) := by
  refine broadcastInDim_apply _ h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- So the two arrays are equal. -/
theorem reshape_mid_eq_bcast (x : (⟨2, ![a, b]⟩ : Shape).Idx → α) (h : (⟨2, ![a, b]⟩ : Shape).ShapeCasts ⟨3, ![a, 1, b]⟩)
    (h' : (⟨2, ![a, b]⟩ : Shape).BroadcastsInDim ⟨3, ![a, 1, b]⟩ ![0, 2]) :
    shapeCast ⟨3, ![a, 1, b]⟩ x h = broadcastInDim ⟨3, ![a, 1, b]⟩ ![0, 2] h' x :=
  funext fun i => by
    obtain ⟨p, u, q, rfl⟩ : ∃ (p : Fin a) (u : Fin 1) (q : Fin b), i = ix3 p u q := ⟨i 0, i 1, i 2, eq_ix3 i⟩
    rw [reshape_mid_apply, bcast_mid_apply]

end Cert.LibUnitAxis
-- ==== Proof.lean ====
/-
  A mixture-of-experts feed-forward layer: the tiled kernel against the two-product reference.

  Tokens arrive grouped by expert (8 experts, 2048 tokens each). For token c of expert e both programs compute

      out(e, c, h) = (sum over f of gelu((sum over k of X(e, c, k) * W1(e, k, f)) + B1(e, f)) * W2(e, f, h)) + B2(e, h)

  with the tanh-form GELU of the same four single-precision constants. The reference takes each of the two sums as one
  matrix product. The kernel walks a grid (expert, token tile of 1024, hidden tile of 256): at each point it forms the
  tile's activated first layer, multiplies by the tile of W2, and adds the product into an accumulator that is reset at
  hidden tile 0 and written out, plus B2, at hidden tile 31. Over the extended reals a change of float format is the
  identity and a sum may be regrouped freely, so the accumulated 32 runs of 256 terms are the reference's one sum of 8192:
  the two results are equal entry by entry, with no appeal to the inputs being finite.

  The frames of the two kernel programs are the generated ones; the reference's frame is its generated run with the
  result dropped; the idealization rewrote nothing.
-/
import proofs.«150474_j75711683494339_2_alg».proof.Defs
import proofs.«150474_j75711683494339_2_alg».proof.Proof.Gen.Kernel
import proofs.«150474_j75711683494339_2_alg».proof.Proof.Gen.Kernel.Skeleton
import proofs.«150474_j75711683494339_2_alg».proof.Proof.Gen.Kernel.Launch
import proofs.«150474_j75711683494339_2_alg».proof.Proof.Gen.Kernel.Points
import proofs.«150474_j75711683494339_2_alg».proof.Proof.Gen.Kernel.Frame
import proofs.«150474_j75711683494339_2_alg».proof.Proof.Gen.KernelIdeal
import proofs.«150474_j75711683494339_2_alg».proof.Proof.Gen.KernelIdeal.Skeleton
import proofs.«150474_j75711683494339_2_alg».proof.Proof.Gen.KernelIdeal.Launch
import proofs.«150474_j75711683494339_2_alg».proof.Proof.Gen.KernelIdeal.Points
import proofs.«150474_j75711683494339_2_alg».proof.Proof.Gen.KernelIdeal.Frame
import proofs.«150474_j75711683494339_2_alg».proof.Proof.Gen.ReferenceIdeal
import proofs.«150474_j75711683494339_2_alg».proof.Proof.Gen.ReferenceIdeal.Run
import proofs.«150474_j75711683494339_2_alg».proof.Proof.Gen.ReferenceIdeal.Read
import proofs.«150474_j75711683494339_2_alg».proof.Proof.Gen.Pre_finite_inputs
import proofs.«150474_j75711683494339_2_alg».proof.Proof.KernelValue
import proofs.«150474_j75711683494339_2_alg».proof.Proof.RefValue
import proofs.«150474_j75711683494339_2_alg».proof.Proof.LibUnitAxis
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result is the reshape of the specification's function of its arguments
    (the region's output array, through the host's final view) and the reference's is the reshape of the same function
    (its stages composed); the two programs hold the bias arrays with a unit middle axis made two ways, which give one
    array. -/
theorem algebraic : Cert.algebraic_KernelIdeal_ReferenceIdeal := by
  intro m ρ m' ρ' _ hagree
  refine ⟨_, Cert.KernelIdeal.KernelValue.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v22_eq, a0, a2, a3, a4, a5, Cert.KernelIdeal.KernelValue.expertOut_of_args]
  unfold Cert.ReferenceIdeal.Read.val_main_v22
  rw [Cert.ReferenceIdeal.RefValue.v21_eq]
  unfold Cert.ReferenceIdeal.Read.val_main_v0 Cert.ReferenceIdeal.Read.val_main_v2 Cert.ReferenceIdeal.Read.val_main_v19
  rw [← Cert.LibUnitAxis.reshape_mid_eq_bcast _ Cert.KernelIdeal.Facts₀.shapeCasts_S8x8192_S8x1x8192,
    ← Cert.LibUnitAxis.reshape_mid_eq_bcast _ Cert.KernelIdeal.Facts₀.shapeCasts_S8x2048_S8x1x2048]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
